-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S4x2048x1024 .f32) (main_arg1 : FVec F S3072x1024 .f32) (main_arg2 : FVec F S3072 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1x3072 : Shape := ⟨2, ![1, 3072]⟩
abbrev S4x16x2048x64 : Shape := ⟨4, ![4, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S768x1024 : Shape := ⟨2, ![768, 1024]⟩
abbrev S1x768 : Shape := ⟨2, ![1, 768]⟩
abbrev S512x768 : Shape := ⟨2, ![512, 768]⟩
abbrev S512x64 : Shape := ⟨2, ![512, 64]⟩
abbrev S1x1x512x64 : Shape := ⟨4, ![1, 1, 512, 64]⟩

abbrev nBuf : Space → Nat
  | .hbm => 8
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S3072x1024, .bf16⟩
  | .hbm, ⟨4, _⟩ => ⟨S1x3072, .f32⟩
  | .hbm, ⟨5, _⟩ => ⟨S4x16x2048x64, .f32⟩
  | .hbm, ⟨6, _⟩ => ⟨S4x16x2048x64, .f32⟩
  | .hbm, ⟨7, _⟩ => ⟨S4x16x2048x64, .f32⟩
  | .local _ .vmem, ⟨0, _⟩ => ⟨S1x512x1024, .f32⟩
  | .local _ .vmem, ⟨1, _⟩ => ⟨S1x512x1024, .f32⟩
  | .local _ .vmem, ⟨2, _⟩ => ⟨S3072x1024, .bf16⟩
  | .local _ .vmem, ⟨3, _⟩ => ⟨S1x3072, .f32⟩
  | .local _ .vmem, ⟨4, _⟩ => ⟨S1x16x512x64, .f32⟩
  | .local _ .vmem, ⟨5, _⟩ => ⟨S1x16x512x64, .f32⟩
  | .local _ .vmem, ⟨6, _⟩ => ⟨S1x16x512x64, .f32⟩
  | .local _ .vmem, ⟨7, _⟩ => ⟨S1x16x512x64, .f32⟩
  | .local _ .vmem, ⟨8, _⟩ => ⟨S1x16x512x64, .f32⟩
  | .local _ .vmem, ⟨9, _⟩ => ⟨S1x16x512x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  shapeCasts_S3072_S1x3072 : S3072.ShapeCasts S1x3072
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S3072x1024_S768x1024_0_0 : ∀ a, (![0, 0] : Fin 2 → Nat) a + S768x1024.size a ≤ S3072x1024.size a
  h_S768x1024 : 0 < S768x1024.numel
  shapeCasts_S768x1024_S768x1024 : S768x1024.ShapeCasts S768x1024
  inb_S1x3072_S1x768_0_0 : ∀ a, (![0, 0] : Fin 2 → Nat) a + S1x768.size a ≤ S1x3072.size a
  h_S1x768 : 0 < S1x768.numel
  shapeCasts_S1x768_S1x768 : S1x768.ShapeCasts S1x768
  broadcasts_S1x768_S512x768 : S1x768.Broadcasts S512x768
  slices_S512x768_o0_0_S512x64 : S512x768.Slices ![0, 0] S512x64
  inb_S1x16x512x64_S1x1x512x64_0_0_0_0 : ∀ a, (![0, 0, 0, 0] : Fin 4 → Nat) a + S1x1x512x64.size a ≤ S1x16x512x64.size a
  h_S1x1x512x64 : 0 < S1x1x512x64.numel
  shapeCasts_S1x1x512x64_S512x64 : S1x1x512x64.ShapeCasts S512x64
  shapeCasts_S512x64_S1x1x512x64 : S512x64.ShapeCasts S1x1x512x64
  slices_S512x768_o0_64_S512x64 : S512x768.Slices ![0, 64] S512x64
  slices_S512x768_o0_128_S512x64 : S512x768.Slices ![0, 128] S512x64
  slices_S512x768_o0_192_S512x64 : S512x768.Slices ![0, 192] S512x64
  inb_S1x16x512x64_S1x1x512x64_0_1_0_0 : ∀ a, (![0, 1, 0, 0] : Fin 4 → Nat) a + S1x1x512x64.size a ≤ S1x16x512x64.size a
  slices_S512x768_o0_256_S512x64 : S512x768.Slices ![0, 256] S512x64
  slices_S512x768_o0_320_S512x64 : S512x768.Slices ![0, 320] S512x64
  slices_S512x768_o0_384_S512x64 : S512x768.Slices ![0, 384] S512x64
  inb_S1x16x512x64_S1x1x512x64_0_2_0_0 : ∀ a, (![0, 2, 0, 0] : Fin 4 → Nat) a + S1x1x512x64.size a ≤ S1x16x512x64.size a
  slices_S512x768_o0_448_S512x64 : S512x768.Slices ![0, 448] S512x64
  slices_S512x768_o0_512_S512x64 : S512x768.Slices ![0, 512] S512x64
  slices_S512x768_o0_576_S512x64 : S512x768.Slices ![0, 576] S512x64
  inb_S1x16x512x64_S1x1x512x64_0_3_0_0 : ∀ a, (![0, 3, 0, 0] : Fin 4 → Nat) a + S1x1x512x64.size a ≤ S1x16x512x64.size a
  slices_S512x768_o0_640_S512x64 : S512x768.Slices ![0, 640] S512x64
  slices_S512x768_o0_704_S512x64 : S512x768.Slices ![0, 704] S512x64
  inb_S3072x1024_S768x1024_768_0 : ∀ a, (![768, 0] : Fin 2 → Nat) a + S768x1024.size a ≤ S3072x1024.size a
  inb_S1x3072_S1x768_0_768 : ∀ a, (![0, 768] : Fin 2 → Nat) a + S1x768.size a ≤ S1x3072.size a
  inb_S1x16x512x64_S1x1x512x64_0_4_0_0 : ∀ a, (![0, 4, 0, 0] : Fin 4 → Nat) a + S1x1x512x64.size a ≤ S1x16x512x64.size a
  inb_S1x16x512x64_S1x1x512x64_0_5_0_0 : ∀ a, (![0, 5, 0, 0] : Fin 4 → Nat) a + S1x1x512x64.size a ≤ S1x16x512x64.size a
  inb_S1x16x512x64_S1x1x512x64_0_6_0_0 : ∀ a, (![0, 6, 0, 0] : Fin 4 → Nat) a + S1x1x512x64.size a ≤ S1x16x512x64.size a
  inb_S1x16x512x64_S1x1x512x64_0_7_0_0 : ∀ a, (![0, 7, 0, 0] : Fin 4 → Nat) a + S1x1x512x64.size a ≤ S1x16x512x64.size a
  inb_S3072x1024_S768x1024_1536_0 : ∀ a, (![1536, 0] : Fin 2 → Nat) a + S768x1024.size a ≤ S3072x1024.size a
  inb_S1x3072_S1x768_0_1536 : ∀ a, (![0, 1536] : Fin 2 → Nat) a + S1x768.size a ≤ S1x3072.size a
  inb_S1x16x512x64_S1x1x512x64_0_8_0_0 : ∀ a, (![0, 8, 0, 0] : Fin 4 → Nat) a + S1x1x512x64.size a ≤ S1x16x512x64.size a
  inb_S1x16x512x64_S1x1x512x64_0_9_0_0 : ∀ a, (![0, 9, 0, 0] : Fin 4 → Nat) a + S1x1x512x64.size a ≤ S1x16x512x64.size a
  inb_S1x16x512x64_S1x1x512x64_0_10_0_0 : ∀ a, (![0, 10, 0, 0] : Fin 4 → Nat) a + S1x1x512x64.size a ≤ S1x16x512x64.size a
  inb_S1x16x512x64_S1x1x512x64_0_11_0_0 : ∀ a, (![0, 11, 0, 0] : Fin 4 → Nat) a + S1x1x512x64.size a ≤ S1x16x512x64.size a
  inb_S3072x1024_S768x1024_2304_0 : ∀ a, (![2304, 0] : Fin 2 → Nat) a + S768x1024.size a ≤ S3072x1024.size a
  inb_S1x3072_S1x768_0_2304 : ∀ a, (![0, 2304] : Fin 2 → Nat) a + S1x768.size a ≤ S1x3072.size a
  inb_S1x16x512x64_S1x1x512x64_0_12_0_0 : ∀ a, (![0, 12, 0, 0] : Fin 4 → Nat) a + S1x1x512x64.size a ≤ S1x16x512x64.size a
  inb_S1x16x512x64_S1x1x512x64_0_13_0_0 : ∀ a, (![0, 13, 0, 0] : Fin 4 → Nat) a + S1x1x512x64.size a ≤ S1x16x512x64.size a
  inb_S1x16x512x64_S1x1x512x64_0_14_0_0 : ∀ a, (![0, 14, 0, 0] : Fin 4 → Nat) a + S1x1x512x64.size a ≤ S1x16x512x64.size a
  inb_S1x16x512x64_S1x1x512x64_0_15_0_0 : ∀ a, (![0, 15, 0, 0] : Fin 4 → Nat) a + S1x1x512x64.size a ≤ S1x16x512x64.size a
  dot_S512x1024_S768x1024_S512x768_1_1_0_0_n_n_wf : DotDims.WF S512x1024 S768x1024 S512x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x64.size a ≤ S4x16x2048x64.size a
  hwx0_3 : ∀ i : grid0.Coords, EltTy.bits .f32 = 32 ∨ (Rect.block (s := S4x16x2048x64) S1x16x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512x64.size a ≤ S4x16x2048x64.size a
  hwx0_4 : ∀ i : grid0.Coords, EltTy.bits .f32 = 32 ∨ (Rect.block (s := S4x16x2048x64) S1x16x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x512x64.size a ≤ S4x16x2048x64.size a
  hwx0_5 : ∀ i : grid0.Coords, EltTy.bits .f32 = 32 ∨ (Rect.block (s := S4x16x2048x64) S1x16x512x64.size (cc0_transform_5 i) (hinb0_5 i)).WholeWords (EltTy.packing .f32)

variable [Facts₀]

def dot_S512x1024_S768x1024_S512x768_1_1_0_0_n_n : DotDims S512x1024 S768x1024 S512x768 where
  lhsContracting := [1]
  rhsContracting := [1]
  lhsNonContracting := [0]
  rhsNonContracting := [0]
  lhsBatch := []
  rhsBatch := []
  wf := dot_S512x1024_S768x1024_S512x768_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x16x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x16x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1x16x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S4x2048x3072 : Shape := ⟨3, ![4, 2048, 3072]⟩
abbrev S1x1x3072 : Shape := ⟨3, ![1, 1, 3072]⟩
abbrev S4x2048x16x192 : Shape := ⟨4, ![4, 2048, 16, 192]⟩
abbrev S4x16x2048x192 : Shape := ⟨4, ![4, 16, 2048, 192]⟩
abbrev S4x16x2048x64 : Shape := ⟨4, ![4, 16, 2048, 64]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S4x2048x3072, .f32⟩
  | .hbm, ⟨4, _⟩ => ⟨S1x1x3072, .f32⟩
  | .hbm, ⟨5, _⟩ => ⟨S4x2048x3072, .f32⟩
  | .hbm, ⟨6, _⟩ => ⟨S4x2048x3072, .f32⟩
  | .hbm, ⟨7, _⟩ => ⟨S4x2048x16x192, .f32⟩
  | .hbm, ⟨8, _⟩ => ⟨S4x16x2048x192, .f32⟩
  | .hbm, ⟨9, _⟩ => ⟨S4x16x2048x64, .f32⟩
  | .hbm, ⟨10, _⟩ => ⟨S4x16x2048x64, .f32⟩
  | .hbm, ⟨11, _⟩ => ⟨S4x16x2048x64, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  shapeCasts_S4x2048x3072_S4x2048x16x192 : S4x2048x3072.ShapeCasts S4x2048x16x192
  transposes_S4x2048x16x192_S4x16x2048x192_0_2_1_3 : S4x2048x16x192.Transposes [0, 2, 1, 3] S4x16x2048x192
  slices_S4x16x2048x192_S4x16x2048x64_0_0_0_0 : S4x16x2048x192.Slices ![0, 0, 0, 0] S4x16x2048x64
  slices_S4x16x2048x192_S4x16x2048x64_0_0_0_64 : S4x16x2048x192.Slices ![0, 0, 0, 64] S4x16x2048x64
  slices_S4x16x2048x192_S4x16x2048x64_0_0_0_128 : S4x16x2048x192.Slices ![0, 0, 0, 128] S4x16x2048x64
  dot_S4x2048x1024_S3072x1024_S4x2048x3072_2_1_01_0_n_n_wf : DotDims.WF S4x2048x1024 S3072x1024 S4x2048x3072 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf

class Facts : Prop extends Facts₀ where

variable [Facts]
-- ==== Proof.LibTransDot.lean ====
/-
  GENERAL LEMMA: a product of a matrix with the transpose of another, read at an entry, on the extended reals.

  For dimension numbers that contract both operands' second axes (an M×K matrix times the transpose of an N×K
  matrix, no batch axis), entry (r, c) of the product is the sum over k : Fin K of left (r, k) · right (c, k); a
  `tpu.matmul` into the zero accumulator is that sum.
-/
import Idealize.ShloMosaic.PureOps.Ideal.Laws
import Idealize.ShloMosaic.Lib.ValueIdx

noncomputable section

namespace Idealize.ShloMosaic.TransDot

open Idealize.ShloMosaic Idealize.ShloMosaic.ValueIdx

variable {M K N : Nat}

/-- The left operand is read on its row axis at the entry's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand is read on its row axis at the entry's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The contraction, re-indexed by the one contracted coordinate. -/
theorem sum_eq (D : DotDims ⟨2, ![M, K]⟩ ⟨2, ![N, K]⟩ ⟨2, ![M, N]⟩) (hD : D = DotDims.transposedRhs M K N)
    (l : (⟨2, ![M, K]⟩ : Shape).Idx → EReal) (r : (⟨2, ![N, K]⟩ : Shape).Idx → EReal) (j : (⟨2, ![M, N]⟩ : Shape).Idx) :
    ∑ q : D.contr.Idx, l (D.lhsIdx j q) * r (D.rhsIdx j q) = ∑ k : Fin K, l (ix2 (j 0) k) * r (ix2 (j 1) k) := by
  subst hD
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_row _ _
      | ⟨1, _⟩ => exact ((DotDims.transposedRhs M K N).rhsIdx_val_of_single rfl _ _).trans hk)
  exact congrArg₂ (fun x y => l x * r y) el er

/-- A `tpu.matmul` of such a product into the zero accumulator at an entry. -/
theorem matmul_zero_apply {φ₁ φ₂ : FTy} (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 (j 1) k) := by
  simp only [matmul]
  rw [Ideal.matmul_constant_zero_apply]
  exact sum_eq D hD l r j

end Idealize.ShloMosaic.TransDot

end
-- ==== Proof.QkvSpec.lean ====
/-
  The fused q/k/v projection, as one function of the argument arrays.

  With x : [4, 2048, 1024], W : [3072, 1024] and b : [3072], the projection is
  y[n, s, o] = (sum over d of x[n, s, d] * W[o, d]) + b[o].  The 3072 output rows are laid out head by head, each head
  owning 192 consecutive rows: 64 for q, then 64 for k, then 64 for v.  So the entry (n, h, s, e) of q, k, v is y[n, s, o]
  at o = 192 * h + off + e with off = 0, 64, 128 respectively.

  `proj off` is that function on the whole arrays, and `projBlk off` the same formula on one block: a [1, 512, 1024] tile of x,
  the whole of W, and b as a [1, 3072] row, giving a [1, 16, 512, 64] tile of the result.
-/
import Idealize.ShloMosaic.PureOps.Ideal
import Idealize.ShloMosaic.Lib.ValueIdx

noncomputable section

namespace Cert.Qkv

open Idealize.ShloMosaic Idealize.ShloMosaic.ValueIdx

/-- Row of W (and entry of b) that feeds lane `e` of head `h` in the part at offset `off` of the head's 192 rows. -/
def projRow (off : Nat) (hoff : off + 64 ≤ 192) (h : Fin 16) (e : Fin 64) : Fin 3072 :=
  ⟨192 * h.val + off + e.val, by have := h.isLt; have := e.isLt; omega⟩

theorem projRow_val (off : Nat) (hoff : off + 64 ≤ 192) (h : Fin 16) (e : Fin 64) :
    (projRow off hoff h e).val = 192 * h.val + off + e.val := rfl

/-- One part (q, k or v, by `off`) of the projection on the whole arrays. -/
def proj (off : Nat) (hoff : off + 64 ≤ 192)
    (x : (⟨3, ![4, 2048, 1024]⟩ : Shape).Idx → EReal) (W : (⟨2, ![3072, 1024]⟩ : Shape).Idx → EReal)
    (b : (⟨1, ![3072]⟩ : Shape).Idx → EReal) : (⟨4, ![4, 16, 2048, 64]⟩ : Shape).Idx → EReal :=
  fun i => (∑ k : Fin 1024, x (ix3 (i 0 : Fin 4) (i 2 : Fin 2048) k) * W (ix2 (projRow off hoff (i 1) (i 3)) k))
    + b (ix1 (projRow off hoff (i 1) (i 3)))

/-- The same part on one block: a [1, 512, 1024] tile of x, all of W, b as a row. -/
def projBlk (off : Nat) (hoff : off + 64 ≤ 192)
    (xb : (⟨3, ![1, 512, 1024]⟩ : Shape).Idx → EReal) (W : (⟨2, ![3072, 1024]⟩ : Shape).Idx → EReal)
    (b2 : (⟨2, ![1, 3072]⟩ : Shape).Idx → EReal) : (⟨4, ![1, 16, 512, 64]⟩ : Shape).Idx → EReal :=
  fun y => (∑ k : Fin 1024, xb (ix3 (0 : Fin 1) (y 2 : Fin 512) k) * W (ix2 (projRow off hoff (y 1) (y 3)) k))
    + b2 (ix2 (0 : Fin 1) (projRow off hoff (y 1) (y 3)))

end Cert.Qkv

end
-- ==== Proof.QkvPiece.lean ====
/-
  One store of the kernel body, read at an entry.

  The body computes, for each of four groups of four heads, the [512, 768] tile  x_tile * W_g^T + b_g  (W_g the group's 768
  rows of W, b_g its 768 entries of b), and stores twelve 64-lane column slices of it: slice number 3 * hl + part goes to
  head 4 * g + hl of output part (q = 0, k = 1, v = 2).  Here: the tile at an entry is the sum over d plus the bias entry;
  a slice at column offset o, viewed as a [1, 1, 512, 64] store payload, reads the tile at column o + e; and hence each
  payload agrees with the block-level projection at the entry of the output tile its rectangle lands on.
-/
import proofs.«114815_j19722489823947_2_alg».proof.Proof.Gen.KernelIdeal.Skeleton
import proofs.«114815_j19722489823947_2_alg».proof.Proof.LibTransDot
import proofs.«114815_j19722489823947_2_alg».proof.Proof.QkvSpec
import Idealize.ShloMosaic.Lib.Pipeline.Value
import Idealize.ShloMosaic.Lib.Pipeline.FrameBody
import Idealize.ShloMosaic.Lib.ValueIdx
import Idealize.ShloMosaic.PureOps.Ideal.Laws

noncomputable section

namespace Cert.KernelIdeal.QkvPiece

open Cert.KernelIdeal Cert.KernelIdeal.Gen Idealize.ShloMosaic Idealize.ShloMosaic.ValueIdx Idealize.ShloMosaic.TcCoe

/-- The x tile with its unit axis dropped (the narrowing to bf16 is the identity on the extended reals). -/
theorem tile_apply (v0 : Vec Ideal S1x512x1024 .f32) (r : Fin 512) (k : Fin 1024) :
    k0_pay2 (F := Ideal) v0 (ix2 r k) = v0 (ix3 (0 : Fin 1) r k) := by
  unfold k0_pay2
  rw [truncf_apply]
  exact shapeCast_apply _ _ (ix2 r k) (ix3 (0 : Fin 1) r k)
    (by rw [Shape.rowMajor_val_three, Shape.rowMajor_val_two]; show ((0 : Nat) * 512 + r.val) * 1024 + k.val = r.val * 1024 + k.val; omega)

/-- A group's tile at entry (r, c): the contraction over the 1024 input features plus the bias entry. -/
theorem group_apply (v2 : FVec Ideal S512x1024 .bf16) (wg : Vec Ideal S768x1024 .bf16) (bg : Vec Ideal S1x768 .f32)
    (r : Fin 512) (c : Fin 768) :
    k0_pay18 (F := Ideal) v2 wg bg (ix2 r c) = (∑ k : Fin 1024, v2 (ix2 r k) * wg (ix2 c k)) + bg (ix2 (0 : Fin 1) c) := by
  unfold k0_pay18
  rw [addf_apply, shapeCast_self, shapeCast_self]
  congr 1
  · exact TransDot.matmul_zero_apply (M := 512) (K := 1024) (N := 768) _ rfl none v2 wg (ix2 r c)
  · exact broadcastTo_apply bg _ (ix2 r c) (ix2 (0 : Fin 1) c) (fun a => match a with
      | ⟨0, _⟩ => by show (0 : Nat) = if (1 : Nat) = 1 then 0 else r.val; rw [if_pos rfl]
      | ⟨1, _⟩ => by show c.val = if (768 : Nat) = 1 then 0 else c.val; rw [if_neg (by decide)])

/-- The other groups' tiles are the same function. -/
theorem pay3_eq (v0 : Vec Ideal S1x512x1024 .f32) (v3 : Vec Ideal S768x1024 .bf16) (v5 : Vec Ideal S1x768 .f32) :
    k0_pay3 (F := Ideal) v0 v3 v5 = k0_pay18 (k0_pay2 v0) v3 v5 := rfl
theorem pay33_eq : @k0_pay33 Ideal _ = k0_pay18 := rfl
theorem pay48_eq : @k0_pay48 Ideal _ = k0_pay18 := rfl

/-- A 64-lane column slice of a [512, 768] tile, as a [1, 1, 512, 64] payload, at entry (0, 0, r, e): the tile at column
    `o + e`. -/
theorem slice_apply (U : FVec Ideal S512x768 .f32) (so : Fin 2 → Nat) (hs : S512x768.Slices so S512x64)
    (hc : S512x64.ShapeCasts S1x1x512x64) (o : Nat) (h0 : so 0 = 0) (h1 : so 1 = o) (ho : o + 64 ≤ 768)
    (r : Fin 512) (e : Fin 64) :
    shapeCast S1x1x512x64 (extractStridedSlice S512x64 so U hs) hc (ix4 (0 : Fin 1) (0 : Fin 1) r e)
      = U (ix2 r (⟨o + e.val, by have := e.isLt; omega⟩ : Fin 768)) := by
  refine (shapeCast_apply _ hc (ix4 (0 : Fin 1) (0 : Fin 1) r e) (ix2 r e)
    (by rw [Shape.rowMajor_val_two, Shape.rowMajor_val_four]; show r.val * 64 + e.val = (((0 : Nat) * 1 + 0) * 512 + r.val) * 64 + e.val; omega)).trans ?_
  exact extractStridedSlice_apply so U hs (ix2 r e) (ix2 r (⟨o + e.val, by have := e.isLt; omega⟩ : Fin 768)) (fun a => match a with
    | ⟨0, _⟩ => by show r.val = so 0 + r.val; omega
    | ⟨1, _⟩ => by show o + e.val = so 1 + e.val; omega)

/-- A store's payload agrees with the block-level projection at the entry its rectangle lands on.  The payload is the slice
    at column `o` of group `g`'s tile (W's rows from `768 * g`, b's entries from `768 * g`); its rectangle is head `h` of
    the output tile; the two name the same row of W when `192 * h + woff = 768 * g + o`. -/
theorem piece_agrees (woff : Nat) (hwoff : woff + 64 ≤ 192)
    (x0 : Vec Ideal S1x512x1024 .f32) (x1 : Vec Ideal S3072x1024 .bf16) (x2 : Vec Ideal S1x3072 .f32)
    (offX : Fin 3 → Nat) (inbX : ∀ a, offX a + S1x512x1024.size a ≤ S1x512x1024.size a) (hX : offX = fun _ => 0)
    (offW : Fin 2 → Nat) (inbW : ∀ a, offW a + S768x1024.size a ≤ S3072x1024.size a)
    (offB : Fin 2 → Nat) (inbB : ∀ a, offB a + S1x768.size a ≤ S1x3072.size a)
    (offO : Fin 4 → Nat) (inbO : ∀ a, offO a + S1x1x512x64.size a ≤ S1x16x512x64.size a)
    (so : Fin 2 → Nat) (hs : S512x768.Slices so S512x64) (hc : S512x64.ShapeCasts S1x1x512x64)
    (g h o : Nat) (hW0 : offW 0 = 768 * g) (hW1 : offW 1 = 0) (hB0 : offB 0 = 0) (hB1 : offB 1 = 768 * g)
    (hO0 : offO 0 = 0) (hO1 : offO 1 = h) (hO2 : offO 2 = 0) (hO3 : offO 3 = 0) (hs0 : so 0 = 0) (hs1 : so 1 = o)
    (ho : o + 64 ≤ 768) (hrel : 192 * h + woff = 768 * g + o)
    (x : S1x1x512x64.Idx) :
    shapeCast S1x1x512x64 (extractStridedSlice S512x64 so
        (k0_pay18 (F := Ideal) (k0_pay2 (View.ld x0 (Rect.unit (s := S1x512x1024) offX S1x512x1024.size inbX)))
          (View.ld x1 (Rect.unit (s := S3072x1024) offW S768x1024.size inbW)) (View.ld x2 (Rect.unit (s := S1x3072) offB S1x768.size inbB))) hs) hc x
      = Cert.Qkv.projBlk woff hwoff x0 x1 x2 ((Rect.unit (s := S1x16x512x64) offO S1x1x512x64.size inbO).emb x) := by
  obtain ⟨r, e, rfl⟩ : ∃ (r : Fin 512) (e : Fin 64), x = ix4 (0 : Fin 1) (0 : Fin 1) r e :=
    ⟨x 2, x 3, funext fun a => match a with
      | ⟨0, _⟩ => Fin.ext (by have h : (x 0).val < 1 := (x 0).isLt; show (x 0).val = 0; omega)
      | ⟨1, _⟩ => Fin.ext (by have h : (x 1).val < 1 := (x 1).isLt; show (x 1).val = 0; omega)
      | ⟨2, _⟩ => rfl
      | ⟨3, _⟩ => rfl⟩
  rw [slice_apply _ so hs hc o hs0 hs1 ho r e, group_apply, View.ld_unit_zero (S := S1x512x1024) hX]
  have y1 : (((Rect.unit (s := S1x16x512x64) offO S1x1x512x64.size inbO).emb (ix4 (0 : Fin 1) (0 : Fin 1) r e)) 1).val = h := by
    show offO 1 + 1 * (0 : Nat) = h; omega
  have y2 : (((Rect.unit (s := S1x16x512x64) offO S1x1x512x64.size inbO).emb (ix4 (0 : Fin 1) (0 : Fin 1) r e)) 2).val = r.val := by
    show offO 2 + 1 * r.val = r.val; omega
  have y3 : (((Rect.unit (s := S1x16x512x64) offO S1x1x512x64.size inbO).emb (ix4 (0 : Fin 1) (0 : Fin 1) r e)) 3).val = e.val := by
    show offO 3 + 1 * e.val = e.val; omega
  unfold Cert.Qkv.projBlk
  refine congrArg₂ (· + ·) (Finset.sum_congr rfl fun k _ => ?_) ?_
  · rw [tile_apply]
    refine congrArg₂ (· * ·) (congrArg x0 ?_) ?_
    · funext a
      match a with
      | ⟨0, _⟩ => rfl
      | ⟨1, _⟩ => exact Fin.ext y2.symm
      | ⟨2, _⟩ => rfl
    · show x1 ((Rect.unit (s := S3072x1024) offW S768x1024.size inbW).emb (ix2 (⟨o + e.val, _⟩ : Fin 768) k)) = _
      refine congrArg x1 (funext fun a => Fin.ext ?_)
      match a with
      | ⟨0, _⟩ =>
        show offW 0 + 1 * (o + e.val) = 192 * (((Rect.unit (s := S1x16x512x64) offO S1x1x512x64.size inbO).emb (ix4 (0 : Fin 1) (0 : Fin 1) r e)) 1).val + woff + (((Rect.unit (s := S1x16x512x64) offO S1x1x512x64.size inbO).emb (ix4 (0 : Fin 1) (0 : Fin 1) r e)) 3).val
        rw [y1, y3]; omega
      | ⟨1, _⟩ => show offW 1 + 1 * k.val = k.val; omega
  · show x2 ((Rect.unit (s := S1x3072) offB S1x768.size inbB).emb (ix2 (0 : Fin 1) (⟨o + e.val, _⟩ : Fin 768))) = _
    refine congrArg x2 (funext fun a => Fin.ext ?_)
    match a with
    | ⟨0, _⟩ => show offB 0 + 1 * (0 : Nat) = 0; omega
    | ⟨1, _⟩ =>
      show offB 1 + 1 * (o + e.val) = 192 * (((Rect.unit (s := S1x16x512x64) offO S1x1x512x64.size inbO).emb (ix4 (0 : Fin 1) (0 : Fin 1) r e)) 1).val + woff + (((Rect.unit (s := S1x16x512x64) offO S1x1x512x64.size inbO).emb (ix4 (0 : Fin 1) (0 : Fin 1) r e)) 3).val
      rw [y1, y3]; omega

end Cert.KernelIdeal.QkvPiece

end
-- ==== Proof.QkvBlock.lean ====
/-
  What the kernel body leaves in each output tile.

  Each of the three output windows receives sixteen stores per grid point, one [1, 1, 512, 64] slab per head.  Every slab is a
  64-lane column slice of its group's tile  x_tile * W_g^T + b_g, and agrees with the block-level projection on the slab's
  entries; since the slabs tile the [1, 16, 512, 64] buffer, the buffer holds the block-level projection.
-/
import proofs.«114815_j19722489823947_2_alg».proof.Proof.Gen.KernelIdeal.Frame
import proofs.«114815_j19722489823947_2_alg».proof.Proof.QkvPiece

set_option maxRecDepth 16384

noncomputable section

namespace Cert.KernelIdeal.QkvBlock

open Cert.KernelIdeal Cert.KernelIdeal.Gen Cert.KernelIdeal.QkvPiece Idealize.ShloMosaic Idealize.ShloMosaic.ValueIdx Idealize.ShloMosaic.TcCoe

theorem hzero3 : (![0, 0, 0] : Fin 3 → Nat) = fun _ => 0 := funext fun a => by fin_cases a <;> rfl

/-- Output part at offset 0 of each head's rows: the sixteen stores into the [1, 16, 512, 64] tile, one per head, together
    hold the block-level projection. -/
theorem out0_3_eq (x0 : Vec Ideal S1x512x1024 .f32) (x1 : Vec Ideal S3072x1024 .bf16) (x2 : Vec Ideal S1x3072 .f32) :
    out0_3 (F := Ideal) x0 x1 x2 = Cert.Qkv.projBlk 0 (by norm_num) x0 x1 x2 := by
  funext y
  unfold out0_3
  refine View.canon_apply_of_pieces (Val := Elt Ideal) (S := S1x16x512x64) (e := .f32) (Cert.Qkv.projBlk 0 (by norm_num) x0 x1 x2) _ ?_ y
    (cover0_3 _ _ _ _ _ _ _ _ _ _ _ _ _ _ _ _ y)
  intro p hp
  rcases List.mem_cons.mp hp with rfl | hp
  · exact fun x => piece_agrees 0 (by norm_num) x0 x1 x2 _ inb_S1x512x1024_S1x512x1024_0_0_0 hzero3 _ inb_S3072x1024_S768x1024_2304_0 _ inb_S1x3072_S1x768_0_2304 _ inb_S1x16x512x64_S1x1x512x64_0_15_0_0 _ slices_S512x768_o0_576_S512x64 shapeCasts_S512x64_S1x1x512x64 3 15 576 rfl rfl rfl rfl rfl rfl rfl rfl rfl rfl (by norm_num) (by norm_num) x
  rcases List.mem_cons.mp hp with rfl | hp
  · exact fun x => piece_agrees 0 (by norm_num) x0 x1 x2 _ inb_S1x512x1024_S1x512x1024_0_0_0 hzero3 _ inb_S3072x1024_S768x1024_2304_0 _ inb_S1x3072_S1x768_0_2304 _ inb_S1x16x512x64_S1x1x512x64_0_14_0_0 _ slices_S512x768_o0_384_S512x64 shapeCasts_S512x64_S1x1x512x64 3 14 384 rfl rfl rfl rfl rfl rfl rfl rfl rfl rfl (by norm_num) (by norm_num) x
  rcases List.mem_cons.mp hp with rfl | hp
  · exact fun x => piece_agrees 0 (by norm_num) x0 x1 x2 _ inb_S1x512x1024_S1x512x1024_0_0_0 hzero3 _ inb_S3072x1024_S768x1024_2304_0 _ inb_S1x3072_S1x768_0_2304 _ inb_S1x16x512x64_S1x1x512x64_0_13_0_0 _ slices_S512x768_o0_192_S512x64 shapeCasts_S512x64_S1x1x512x64 3 13 192 rfl rfl rfl rfl rfl rfl rfl rfl rfl rfl (by norm_num) (by norm_num) x
  rcases List.mem_cons.mp hp with rfl | hp
  · exact fun x => piece_agrees 0 (by norm_num) x0 x1 x2 _ inb_S1x512x1024_S1x512x1024_0_0_0 hzero3 _ inb_S3072x1024_S768x1024_2304_0 _ inb_S1x3072_S1x768_0_2304 _ inb_S1x16x512x64_S1x1x512x64_0_12_0_0 _ slices_S512x768_o0_0_S512x64 shapeCasts_S512x64_S1x1x512x64 3 12 0 rfl rfl rfl rfl rfl rfl rfl rfl rfl rfl (by norm_num) (by norm_num) x
  rcases List.mem_cons.mp hp with rfl | hp
  · exact fun x => piece_agrees 0 (by norm_num) x0 x1 x2 _ inb_S1x512x1024_S1x512x1024_0_0_0 hzero3 _ inb_S3072x1024_S768x1024_1536_0 _ inb_S1x3072_S1x768_0_1536 _ inb_S1x16x512x64_S1x1x512x64_0_11_0_0 _ slices_S512x768_o0_576_S512x64 shapeCasts_S512x64_S1x1x512x64 2 11 576 rfl rfl rfl rfl rfl rfl rfl rfl rfl rfl (by norm_num) (by norm_num) x
  rcases List.mem_cons.mp hp with rfl | hp
  · exact fun x => piece_agrees 0 (by norm_num) x0 x1 x2 _ inb_S1x512x1024_S1x512x1024_0_0_0 hzero3 _ inb_S3072x1024_S768x1024_1536_0 _ inb_S1x3072_S1x768_0_1536 _ inb_S1x16x512x64_S1x1x512x64_0_10_0_0 _ slices_S512x768_o0_384_S512x64 shapeCasts_S512x64_S1x1x512x64 2 10 384 rfl rfl rfl rfl rfl rfl rfl rfl rfl rfl (by norm_num) (by norm_num) x
  rcases List.mem_cons.mp hp with rfl | hp
  · exact fun x => piece_agrees 0 (by norm_num) x0 x1 x2 _ inb_S1x512x1024_S1x512x1024_0_0_0 hzero3 _ inb_S3072x1024_S768x1024_1536_0 _ inb_S1x3072_S1x768_0_1536 _ inb_S1x16x512x64_S1x1x512x64_0_9_0_0 _ slices_S512x768_o0_192_S512x64 shapeCasts_S512x64_S1x1x512x64 2 9 192 rfl rfl rfl rfl rfl rfl rfl rfl rfl rfl (by norm_num) (by norm_num) x
  rcases List.mem_cons.mp hp with rfl | hp
  · exact fun x => piece_agrees 0 (by norm_num) x0 x1 x2 _ inb_S1x512x1024_S1x512x1024_0_0_0 hzero3 _ inb_S3072x1024_S768x1024_1536_0 _ inb_S1x3072_S1x768_0_1536 _ inb_S1x16x512x64_S1x1x512x64_0_8_0_0 _ slices_S512x768_o0_0_S512x64 shapeCasts_S512x64_S1x1x512x64 2 8 0 rfl rfl rfl rfl rfl rfl rfl rfl rfl rfl (by norm_num) (by norm_num) x
  rcases List.mem_cons.mp hp with rfl | hp
  · exact fun x => piece_agrees 0 (by norm_num) x0 x1 x2 _ inb_S1x512x1024_S1x512x1024_0_0_0 hzero3 _ inb_S3072x1024_S768x1024_768_0 _ inb_S1x3072_S1x768_0_768 _ inb_S1x16x512x64_S1x1x512x64_0_7_0_0 _ slices_S512x768_o0_576_S512x64 shapeCasts_S512x64_S1x1x512x64 1 7 576 rfl rfl rfl rfl rfl rfl rfl rfl rfl rfl (by norm_num) (by norm_num) x
  rcases List.mem_cons.mp hp with rfl | hp
  · exact fun x => piece_agrees 0 (by norm_num) x0 x1 x2 _ inb_S1x512x1024_S1x512x1024_0_0_0 hzero3 _ inb_S3072x1024_S768x1024_768_0 _ inb_S1x3072_S1x768_0_768 _ inb_S1x16x512x64_S1x1x512x64_0_6_0_0 _ slices_S512x768_o0_384_S512x64 shapeCasts_S512x64_S1x1x512x64 1 6 384 rfl rfl rfl rfl rfl rfl rfl rfl rfl rfl (by norm_num) (by norm_num) x
  rcases List.mem_cons.mp hp with rfl | hp
  · exact fun x => piece_agrees 0 (by norm_num) x0 x1 x2 _ inb_S1x512x1024_S1x512x1024_0_0_0 hzero3 _ inb_S3072x1024_S768x1024_768_0 _ inb_S1x3072_S1x768_0_768 _ inb_S1x16x512x64_S1x1x512x64_0_5_0_0 _ slices_S512x768_o0_192_S512x64 shapeCasts_S512x64_S1x1x512x64 1 5 192 rfl rfl rfl rfl rfl rfl rfl rfl rfl rfl (by norm_num) (by norm_num) x
  rcases List.mem_cons.mp hp with rfl | hp
  · exact fun x => piece_agrees 0 (by norm_num) x0 x1 x2 _ inb_S1x512x1024_S1x512x1024_0_0_0 hzero3 _ inb_S3072x1024_S768x1024_768_0 _ inb_S1x3072_S1x768_0_768 _ inb_S1x16x512x64_S1x1x512x64_0_4_0_0 _ slices_S512x768_o0_0_S512x64 shapeCasts_S512x64_S1x1x512x64 1 4 0 rfl rfl rfl rfl rfl rfl rfl rfl rfl rfl (by norm_num) (by norm_num) x
  rcases List.mem_cons.mp hp with rfl | hp
  · exact fun x => piece_agrees 0 (by norm_num) x0 x1 x2 _ inb_S1x512x1024_S1x512x1024_0_0_0 hzero3 _ inb_S3072x1024_S768x1024_0_0 _ inb_S1x3072_S1x768_0_0 _ inb_S1x16x512x64_S1x1x512x64_0_3_0_0 _ slices_S512x768_o0_576_S512x64 shapeCasts_S512x64_S1x1x512x64 0 3 576 rfl rfl rfl rfl rfl rfl rfl rfl rfl rfl (by norm_num) (by norm_num) x
  rcases List.mem_cons.mp hp with rfl | hp
  · exact fun x => piece_agrees 0 (by norm_num) x0 x1 x2 _ inb_S1x512x1024_S1x512x1024_0_0_0 hzero3 _ inb_S3072x1024_S768x1024_0_0 _ inb_S1x3072_S1x768_0_0 _ inb_S1x16x512x64_S1x1x512x64_0_2_0_0 _ slices_S512x768_o0_384_S512x64 shapeCasts_S512x64_S1x1x512x64 0 2 384 rfl rfl rfl rfl rfl rfl rfl rfl rfl rfl (by norm_num) (by norm_num) x
  rcases List.mem_cons.mp hp with rfl | hp
  · exact fun x => piece_agrees 0 (by norm_num) x0 x1 x2 _ inb_S1x512x1024_S1x512x1024_0_0_0 hzero3 _ inb_S3072x1024_S768x1024_0_0 _ inb_S1x3072_S1x768_0_0 _ inb_S1x16x512x64_S1x1x512x64_0_1_0_0 _ slices_S512x768_o0_192_S512x64 shapeCasts_S512x64_S1x1x512x64 0 1 192 rfl rfl rfl rfl rfl rfl rfl rfl rfl rfl (by norm_num) (by norm_num) x
  rcases List.mem_cons.mp hp with rfl | hp
  · exact fun x => piece_agrees 0 (by norm_num) x0 x1 x2 _ inb_S1x512x1024_S1x512x1024_0_0_0 hzero3 _ inb_S3072x1024_S768x1024_0_0 _ inb_S1x3072_S1x768_0_0 _ inb_S1x16x512x64_S1x1x512x64_0_0_0_0 _ slices_S512x768_o0_0_S512x64 shapeCasts_S512x64_S1x1x512x64 0 0 0 rfl rfl rfl rfl rfl rfl rfl rfl rfl rfl (by norm_num) (by norm_num) x
  exact absurd hp List.not_mem_nil

/-- Output part at offset 64 of each head's rows: the sixteen stores into the [1, 16, 512, 64] tile, one per head, together
    hold the block-level projection. -/
theorem out0_4_eq (x0 : Vec Ideal S1x512x1024 .f32) (x1 : Vec Ideal S3072x1024 .bf16) (x2 : Vec Ideal S1x3072 .f32) :
    out0_4 (F := Ideal) x0 x1 x2 = Cert.Qkv.projBlk 64 (by norm_num) x0 x1 x2 := by
  funext y
  unfold out0_4
  refine View.canon_apply_of_pieces (Val := Elt Ideal) (S := S1x16x512x64) (e := .f32) (Cert.Qkv.projBlk 64 (by norm_num) x0 x1 x2) _ ?_ y
    (cover0_4 _ _ _ _ _ _ _ _ _ _ _ _ _ _ _ _ y)
  intro p hp
  rcases List.mem_cons.mp hp with rfl | hp
  · exact fun x => piece_agrees 64 (by norm_num) x0 x1 x2 _ inb_S1x512x1024_S1x512x1024_0_0_0 hzero3 _ inb_S3072x1024_S768x1024_2304_0 _ inb_S1x3072_S1x768_0_2304 _ inb_S1x16x512x64_S1x1x512x64_0_15_0_0 _ slices_S512x768_o0_640_S512x64 shapeCasts_S512x64_S1x1x512x64 3 15 640 rfl rfl rfl rfl rfl rfl rfl rfl rfl rfl (by norm_num) (by norm_num) x
  rcases List.mem_cons.mp hp with rfl | hp
  · exact fun x => piece_agrees 64 (by norm_num) x0 x1 x2 _ inb_S1x512x1024_S1x512x1024_0_0_0 hzero3 _ inb_S3072x1024_S768x1024_2304_0 _ inb_S1x3072_S1x768_0_2304 _ inb_S1x16x512x64_S1x1x512x64_0_14_0_0 _ slices_S512x768_o0_448_S512x64 shapeCasts_S512x64_S1x1x512x64 3 14 448 rfl rfl rfl rfl rfl rfl rfl rfl rfl rfl (by norm_num) (by norm_num) x
  rcases List.mem_cons.mp hp with rfl | hp
  · exact fun x => piece_agrees 64 (by norm_num) x0 x1 x2 _ inb_S1x512x1024_S1x512x1024_0_0_0 hzero3 _ inb_S3072x1024_S768x1024_2304_0 _ inb_S1x3072_S1x768_0_2304 _ inb_S1x16x512x64_S1x1x512x64_0_13_0_0 _ slices_S512x768_o0_256_S512x64 shapeCasts_S512x64_S1x1x512x64 3 13 256 rfl rfl rfl rfl rfl rfl rfl rfl rfl rfl (by norm_num) (by norm_num) x
  rcases List.mem_cons.mp hp with rfl | hp
  · exact fun x => piece_agrees 64 (by norm_num) x0 x1 x2 _ inb_S1x512x1024_S1x512x1024_0_0_0 hzero3 _ inb_S3072x1024_S768x1024_2304_0 _ inb_S1x3072_S1x768_0_2304 _ inb_S1x16x512x64_S1x1x512x64_0_12_0_0 _ slices_S512x768_o0_64_S512x64 shapeCasts_S512x64_S1x1x512x64 3 12 64 rfl rfl rfl rfl rfl rfl rfl rfl rfl rfl (by norm_num) (by norm_num) x
  rcases List.mem_cons.mp hp with rfl | hp
  · exact fun x => piece_agrees 64 (by norm_num) x0 x1 x2 _ inb_S1x512x1024_S1x512x1024_0_0_0 hzero3 _ inb_S3072x1024_S768x1024_1536_0 _ inb_S1x3072_S1x768_0_1536 _ inb_S1x16x512x64_S1x1x512x64_0_11_0_0 _ slices_S512x768_o0_640_S512x64 shapeCasts_S512x64_S1x1x512x64 2 11 640 rfl rfl rfl rfl rfl rfl rfl rfl rfl rfl (by norm_num) (by norm_num) x
  rcases List.mem_cons.mp hp with rfl | hp
  · exact fun x => piece_agrees 64 (by norm_num) x0 x1 x2 _ inb_S1x512x1024_S1x512x1024_0_0_0 hzero3 _ inb_S3072x1024_S768x1024_1536_0 _ inb_S1x3072_S1x768_0_1536 _ inb_S1x16x512x64_S1x1x512x64_0_10_0_0 _ slices_S512x768_o0_448_S512x64 shapeCasts_S512x64_S1x1x512x64 2 10 448 rfl rfl rfl rfl rfl rfl rfl rfl rfl rfl (by norm_num) (by norm_num) x
  rcases List.mem_cons.mp hp with rfl | hp
  · exact fun x => piece_agrees 64 (by norm_num) x0 x1 x2 _ inb_S1x512x1024_S1x512x1024_0_0_0 hzero3 _ inb_S3072x1024_S768x1024_1536_0 _ inb_S1x3072_S1x768_0_1536 _ inb_S1x16x512x64_S1x1x512x64_0_9_0_0 _ slices_S512x768_o0_256_S512x64 shapeCasts_S512x64_S1x1x512x64 2 9 256 rfl rfl rfl rfl rfl rfl rfl rfl rfl rfl (by norm_num) (by norm_num) x
  rcases List.mem_cons.mp hp with rfl | hp
  · exact fun x => piece_agrees 64 (by norm_num) x0 x1 x2 _ inb_S1x512x1024_S1x512x1024_0_0_0 hzero3 _ inb_S3072x1024_S768x1024_1536_0 _ inb_S1x3072_S1x768_0_1536 _ inb_S1x16x512x64_S1x1x512x64_0_8_0_0 _ slices_S512x768_o0_64_S512x64 shapeCasts_S512x64_S1x1x512x64 2 8 64 rfl rfl rfl rfl rfl rfl rfl rfl rfl rfl (by norm_num) (by norm_num) x
  rcases List.mem_cons.mp hp with rfl | hp
  · exact fun x => piece_agrees 64 (by norm_num) x0 x1 x2 _ inb_S1x512x1024_S1x512x1024_0_0_0 hzero3 _ inb_S3072x1024_S768x1024_768_0 _ inb_S1x3072_S1x768_0_768 _ inb_S1x16x512x64_S1x1x512x64_0_7_0_0 _ slices_S512x768_o0_640_S512x64 shapeCasts_S512x64_S1x1x512x64 1 7 640 rfl rfl rfl rfl rfl rfl rfl rfl rfl rfl (by norm_num) (by norm_num) x
  rcases List.mem_cons.mp hp with rfl | hp
  · exact fun x => piece_agrees 64 (by norm_num) x0 x1 x2 _ inb_S1x512x1024_S1x512x1024_0_0_0 hzero3 _ inb_S3072x1024_S768x1024_768_0 _ inb_S1x3072_S1x768_0_768 _ inb_S1x16x512x64_S1x1x512x64_0_6_0_0 _ slices_S512x768_o0_448_S512x64 shapeCasts_S512x64_S1x1x512x64 1 6 448 rfl rfl rfl rfl rfl rfl rfl rfl rfl rfl (by norm_num) (by norm_num) x
  rcases List.mem_cons.mp hp with rfl | hp
  · exact fun x => piece_agrees 64 (by norm_num) x0 x1 x2 _ inb_S1x512x1024_S1x512x1024_0_0_0 hzero3 _ inb_S3072x1024_S768x1024_768_0 _ inb_S1x3072_S1x768_0_768 _ inb_S1x16x512x64_S1x1x512x64_0_5_0_0 _ slices_S512x768_o0_256_S512x64 shapeCasts_S512x64_S1x1x512x64 1 5 256 rfl rfl rfl rfl rfl rfl rfl rfl rfl rfl (by norm_num) (by norm_num) x
  rcases List.mem_cons.mp hp with rfl | hp
  · exact fun x => piece_agrees 64 (by norm_num) x0 x1 x2 _ inb_S1x512x1024_S1x512x1024_0_0_0 hzero3 _ inb_S3072x1024_S768x1024_768_0 _ inb_S1x3072_S1x768_0_768 _ inb_S1x16x512x64_S1x1x512x64_0_4_0_0 _ slices_S512x768_o0_64_S512x64 shapeCasts_S512x64_S1x1x512x64 1 4 64 rfl rfl rfl rfl rfl rfl rfl rfl rfl rfl (by norm_num) (by norm_num) x
  rcases List.mem_cons.mp hp with rfl | hp
  · exact fun x => piece_agrees 64 (by norm_num) x0 x1 x2 _ inb_S1x512x1024_S1x512x1024_0_0_0 hzero3 _ inb_S3072x1024_S768x1024_0_0 _ inb_S1x3072_S1x768_0_0 _ inb_S1x16x512x64_S1x1x512x64_0_3_0_0 _ slices_S512x768_o0_640_S512x64 shapeCasts_S512x64_S1x1x512x64 0 3 640 rfl rfl rfl rfl rfl rfl rfl rfl rfl rfl (by norm_num) (by norm_num) x
  rcases List.mem_cons.mp hp with rfl | hp
  · exact fun x => piece_agrees 64 (by norm_num) x0 x1 x2 _ inb_S1x512x1024_S1x512x1024_0_0_0 hzero3 _ inb_S3072x1024_S768x1024_0_0 _ inb_S1x3072_S1x768_0_0 _ inb_S1x16x512x64_S1x1x512x64_0_2_0_0 _ slices_S512x768_o0_448_S512x64 shapeCasts_S512x64_S1x1x512x64 0 2 448 rfl rfl rfl rfl rfl rfl rfl rfl rfl rfl (by norm_num) (by norm_num) x
  rcases List.mem_cons.mp hp with rfl | hp
  · exact fun x => piece_agrees 64 (by norm_num) x0 x1 x2 _ inb_S1x512x1024_S1x512x1024_0_0_0 hzero3 _ inb_S3072x1024_S768x1024_0_0 _ inb_S1x3072_S1x768_0_0 _ inb_S1x16x512x64_S1x1x512x64_0_1_0_0 _ slices_S512x768_o0_256_S512x64 shapeCasts_S512x64_S1x1x512x64 0 1 256 rfl rfl rfl rfl rfl rfl rfl rfl rfl rfl (by norm_num) (by norm_num) x
  rcases List.mem_cons.mp hp with rfl | hp
  · exact fun x => piece_agrees 64 (by norm_num) x0 x1 x2 _ inb_S1x512x1024_S1x512x1024_0_0_0 hzero3 _ inb_S3072x1024_S768x1024_0_0 _ inb_S1x3072_S1x768_0_0 _ inb_S1x16x512x64_S1x1x512x64_0_0_0_0 _ slices_S512x768_o0_64_S512x64 shapeCasts_S512x64_S1x1x512x64 0 0 64 rfl rfl rfl rfl rfl rfl rfl rfl rfl rfl (by norm_num) (by norm_num) x
  exact absurd hp List.not_mem_nil

/-- Output part at offset 128 of each head's rows: the sixteen stores into the [1, 16, 512, 64] tile, one per head, together
    hold the block-level projection. -/
theorem out0_5_eq (x0 : Vec Ideal S1x512x1024 .f32) (x1 : Vec Ideal S3072x1024 .bf16) (x2 : Vec Ideal S1x3072 .f32) :
    out0_5 (F := Ideal) x0 x1 x2 = Cert.Qkv.projBlk 128 (by norm_num) x0 x1 x2 := by
  funext y
  unfold out0_5
  refine View.canon_apply_of_pieces (Val := Elt Ideal) (S := S1x16x512x64) (e := .f32) (Cert.Qkv.projBlk 128 (by norm_num) x0 x1 x2) _ ?_ y
    (cover0_5 _ _ _ _ _ _ _ _ _ _ _ _ _ _ _ _ y)
  intro p hp
  rcases List.mem_cons.mp hp with rfl | hp
  · exact fun x => piece_agrees 128 (by norm_num) x0 x1 x2 _ inb_S1x512x1024_S1x512x1024_0_0_0 hzero3 _ inb_S3072x1024_S768x1024_2304_0 _ inb_S1x3072_S1x768_0_2304 _ inb_S1x16x512x64_S1x1x512x64_0_15_0_0 _ slices_S512x768_o0_704_S512x64 shapeCasts_S512x64_S1x1x512x64 3 15 704 rfl rfl rfl rfl rfl rfl rfl rfl rfl rfl (by norm_num) (by norm_num) x
  rcases List.mem_cons.mp hp with rfl | hp
  · exact fun x => piece_agrees 128 (by norm_num) x0 x1 x2 _ inb_S1x512x1024_S1x512x1024_0_0_0 hzero3 _ inb_S3072x1024_S768x1024_2304_0 _ inb_S1x3072_S1x768_0_2304 _ inb_S1x16x512x64_S1x1x512x64_0_14_0_0 _ slices_S512x768_o0_512_S512x64 shapeCasts_S512x64_S1x1x512x64 3 14 512 rfl rfl rfl rfl rfl rfl rfl rfl rfl rfl (by norm_num) (by norm_num) x
  rcases List.mem_cons.mp hp with rfl | hp
  · exact fun x => piece_agrees 128 (by norm_num) x0 x1 x2 _ inb_S1x512x1024_S1x512x1024_0_0_0 hzero3 _ inb_S3072x1024_S768x1024_2304_0 _ inb_S1x3072_S1x768_0_2304 _ inb_S1x16x512x64_S1x1x512x64_0_13_0_0 _ slices_S512x768_o0_320_S512x64 shapeCasts_S512x64_S1x1x512x64 3 13 320 rfl rfl rfl rfl rfl rfl rfl rfl rfl rfl (by norm_num) (by norm_num) x
  rcases List.mem_cons.mp hp with rfl | hp
  · exact fun x => piece_agrees 128 (by norm_num) x0 x1 x2 _ inb_S1x512x1024_S1x512x1024_0_0_0 hzero3 _ inb_S3072x1024_S768x1024_2304_0 _ inb_S1x3072_S1x768_0_2304 _ inb_S1x16x512x64_S1x1x512x64_0_12_0_0 _ slices_S512x768_o0_128_S512x64 shapeCasts_S512x64_S1x1x512x64 3 12 128 rfl rfl rfl rfl rfl rfl rfl rfl rfl rfl (by norm_num) (by norm_num) x
  rcases List.mem_cons.mp hp with rfl | hp
  · exact fun x => piece_agrees 128 (by norm_num) x0 x1 x2 _ inb_S1x512x1024_S1x512x1024_0_0_0 hzero3 _ inb_S3072x1024_S768x1024_1536_0 _ inb_S1x3072_S1x768_0_1536 _ inb_S1x16x512x64_S1x1x512x64_0_11_0_0 _ slices_S512x768_o0_704_S512x64 shapeCasts_S512x64_S1x1x512x64 2 11 704 rfl rfl rfl rfl rfl rfl rfl rfl rfl rfl (by norm_num) (by norm_num) x
  rcases List.mem_cons.mp hp with rfl | hp
  · exact fun x => piece_agrees 128 (by norm_num) x0 x1 x2 _ inb_S1x512x1024_S1x512x1024_0_0_0 hzero3 _ inb_S3072x1024_S768x1024_1536_0 _ inb_S1x3072_S1x768_0_1536 _ inb_S1x16x512x64_S1x1x512x64_0_10_0_0 _ slices_S512x768_o0_512_S512x64 shapeCasts_S512x64_S1x1x512x64 2 10 512 rfl rfl rfl rfl rfl rfl rfl rfl rfl rfl (by norm_num) (by norm_num) x
  rcases List.mem_cons.mp hp with rfl | hp
  · exact fun x => piece_agrees 128 (by norm_num) x0 x1 x2 _ inb_S1x512x1024_S1x512x1024_0_0_0 hzero3 _ inb_S3072x1024_S768x1024_1536_0 _ inb_S1x3072_S1x768_0_1536 _ inb_S1x16x512x64_S1x1x512x64_0_9_0_0 _ slices_S512x768_o0_320_S512x64 shapeCasts_S512x64_S1x1x512x64 2 9 320 rfl rfl rfl rfl rfl rfl rfl rfl rfl rfl (by norm_num) (by norm_num) x
  rcases List.mem_cons.mp hp with rfl | hp
  · exact fun x => piece_agrees 128 (by norm_num) x0 x1 x2 _ inb_S1x512x1024_S1x512x1024_0_0_0 hzero3 _ inb_S3072x1024_S768x1024_1536_0 _ inb_S1x3072_S1x768_0_1536 _ inb_S1x16x512x64_S1x1x512x64_0_8_0_0 _ slices_S512x768_o0_128_S512x64 shapeCasts_S512x64_S1x1x512x64 2 8 128 rfl rfl rfl rfl rfl rfl rfl rfl rfl rfl (by norm_num) (by norm_num) x
  rcases List.mem_cons.mp hp with rfl | hp
  · exact fun x => piece_agrees 128 (by norm_num) x0 x1 x2 _ inb_S1x512x1024_S1x512x1024_0_0_0 hzero3 _ inb_S3072x1024_S768x1024_768_0 _ inb_S1x3072_S1x768_0_768 _ inb_S1x16x512x64_S1x1x512x64_0_7_0_0 _ slices_S512x768_o0_704_S512x64 shapeCasts_S512x64_S1x1x512x64 1 7 704 rfl rfl rfl rfl rfl rfl rfl rfl rfl rfl (by norm_num) (by norm_num) x
  rcases List.mem_cons.mp hp with rfl | hp
  · exact fun x => piece_agrees 128 (by norm_num) x0 x1 x2 _ inb_S1x512x1024_S1x512x1024_0_0_0 hzero3 _ inb_S3072x1024_S768x1024_768_0 _ inb_S1x3072_S1x768_0_768 _ inb_S1x16x512x64_S1x1x512x64_0_6_0_0 _ slices_S512x768_o0_512_S512x64 shapeCasts_S512x64_S1x1x512x64 1 6 512 rfl rfl rfl rfl rfl rfl rfl rfl rfl rfl (by norm_num) (by norm_num) x
  rcases List.mem_cons.mp hp with rfl | hp
  · exact fun x => piece_agrees 128 (by norm_num) x0 x1 x2 _ inb_S1x512x1024_S1x512x1024_0_0_0 hzero3 _ inb_S3072x1024_S768x1024_768_0 _ inb_S1x3072_S1x768_0_768 _ inb_S1x16x512x64_S1x1x512x64_0_5_0_0 _ slices_S512x768_o0_320_S512x64 shapeCasts_S512x64_S1x1x512x64 1 5 320 rfl rfl rfl rfl rfl rfl rfl rfl rfl rfl (by norm_num) (by norm_num) x
  rcases List.mem_cons.mp hp with rfl | hp
  · exact fun x => piece_agrees 128 (by norm_num) x0 x1 x2 _ inb_S1x512x1024_S1x512x1024_0_0_0 hzero3 _ inb_S3072x1024_S768x1024_768_0 _ inb_S1x3072_S1x768_0_768 _ inb_S1x16x512x64_S1x1x512x64_0_4_0_0 _ slices_S512x768_o0_128_S512x64 shapeCasts_S512x64_S1x1x512x64 1 4 128 rfl rfl rfl rfl rfl rfl rfl rfl rfl rfl (by norm_num) (by norm_num) x
  rcases List.mem_cons.mp hp with rfl | hp
  · exact fun x => piece_agrees 128 (by norm_num) x0 x1 x2 _ inb_S1x512x1024_S1x512x1024_0_0_0 hzero3 _ inb_S3072x1024_S768x1024_0_0 _ inb_S1x3072_S1x768_0_0 _ inb_S1x16x512x64_S1x1x512x64_0_3_0_0 _ slices_S512x768_o0_704_S512x64 shapeCasts_S512x64_S1x1x512x64 0 3 704 rfl rfl rfl rfl rfl rfl rfl rfl rfl rfl (by norm_num) (by norm_num) x
  rcases List.mem_cons.mp hp with rfl | hp
  · exact fun x => piece_agrees 128 (by norm_num) x0 x1 x2 _ inb_S1x512x1024_S1x512x1024_0_0_0 hzero3 _ inb_S3072x1024_S768x1024_0_0 _ inb_S1x3072_S1x768_0_0 _ inb_S1x16x512x64_S1x1x512x64_0_2_0_0 _ slices_S512x768_o0_512_S512x64 shapeCasts_S512x64_S1x1x512x64 0 2 512 rfl rfl rfl rfl rfl rfl rfl rfl rfl rfl (by norm_num) (by norm_num) x
  rcases List.mem_cons.mp hp with rfl | hp
  · exact fun x => piece_agrees 128 (by norm_num) x0 x1 x2 _ inb_S1x512x1024_S1x512x1024_0_0_0 hzero3 _ inb_S3072x1024_S768x1024_0_0 _ inb_S1x3072_S1x768_0_0 _ inb_S1x16x512x64_S1x1x512x64_0_1_0_0 _ slices_S512x768_o0_320_S512x64 shapeCasts_S512x64_S1x1x512x64 0 1 320 rfl rfl rfl rfl rfl rfl rfl rfl rfl rfl (by norm_num) (by norm_num) x
  rcases List.mem_cons.mp hp with rfl | hp
  · exact fun x => piece_agrees 128 (by norm_num) x0 x1 x2 _ inb_S1x512x1024_S1x512x1024_0_0_0 hzero3 _ inb_S3072x1024_S768x1024_0_0 _ inb_S1x3072_S1x768_0_0 _ inb_S1x16x512x64_S1x1x512x64_0_0_0_0 _ slices_S512x768_o0_128_S512x64 shapeCasts_S512x64_S1x1x512x64 0 0 128 rfl rfl rfl rfl rfl rfl rfl rfl rfl rfl (by norm_num) (by norm_num) x
  exact absurd hp List.not_mem_nil

end Cert.KernelIdeal.QkvBlock

end
-- ==== Proof.QkvTile.lean ====
/-
  A tile of the projection is the projection of a tile.

  If a [1, 512, 1024] tile xb holds rows of x (batch n, 512 consecutive sequence positions), W' is W and b2 is b written as a
  [1, 3072] row, then the block-level projection of (xb, W', b2) at a tile entry equals the whole-array projection at the
  array entry that tile entry sits on.  Stated over an arbitrary pair of entries related coordinate by coordinate, so that it can
  be used at any grid point.
-/
import proofs.«114815_j19722489823947_2_alg».proof.Proof.QkvSpec

noncomputable section

namespace Cert.Qkv

open Idealize.ShloMosaic Idealize.ShloMosaic.ValueIdx

theorem projBlk_eq_proj (off : Nat) (hoff : off + 64 ≤ 192)
    (X : (⟨3, ![4, 2048, 1024]⟩ : Shape).Idx → EReal) (W : (⟨2, ![3072, 1024]⟩ : Shape).Idx → EReal)
    (B : (⟨1, ![3072]⟩ : Shape).Idx → EReal)
    (xb : (⟨3, ![1, 512, 1024]⟩ : Shape).Idx → EReal) (W' : (⟨2, ![3072, 1024]⟩ : Shape).Idx → EReal)
    (b2 : (⟨2, ![1, 3072]⟩ : Shape).Idx → EReal)
    (y : (⟨4, ![1, 16, 512, 64]⟩ : Shape).Idx) (i : (⟨4, ![4, 16, 2048, 64]⟩ : Shape).Idx)
    (hx : ∀ k : Fin 1024, xb (ix3 (0 : Fin 1) (y 2 : Fin 512) k) = X (ix3 (i 0 : Fin 4) (i 2 : Fin 2048) k))
    (hW : ∀ (row : Fin 3072) (k : Fin 1024), W' (ix2 row k) = W (ix2 row k))
    (hb : ∀ row : Fin 3072, b2 (ix2 (0 : Fin 1) row) = B (ix1 row))
    (h1 : (i 1).val = (y 1).val) (h3 : (i 3).val = (y 3).val) :
    projBlk off hoff xb W' b2 y = proj off hoff X W B i := by
  have e1 : (i 1 : Fin 16) = y 1 := Fin.ext h1
  have e3 : (i 3 : Fin 64) = y 3 := Fin.ext h3
  unfold projBlk proj
  rw [e1, e3, hb]
  refine congrArg₂ (· + ·) (Finset.sum_congr rfl fun k _ => ?_) rfl
  rw [hx, hW]

end Cert.Qkv

end
-- ==== Proof.QkvArray.lean ====
/-
  From tiles to arrays.

  The kernel runs on a 4 x 4 grid: point (n, st) stages the [1, 512, 1024] tile of x at batch n and sequence tile st, the whole of
  W (already narrowed to bf16 by the host, the identity on the extended reals) and b as a [1, 3072] row (a host reshape), and
  writes back the [1, 16, 512, 64] tiles of q, k and v at batch n, sequence tile st.  Each tile written back is the projection
  restricted to the tile, and the sixteen tiles cover each [4, 16, 2048, 64] output; so each output array ends as the projection
  of the argument arrays.
-/
import proofs.«114815_j19722489823947_2_alg».proof.Proof.Gen.KernelIdeal.Value
import proofs.«114815_j19722489823947_2_alg».proof.Proof.QkvBlock
import proofs.«114815_j19722489823947_2_alg».proof.Proof.QkvTile
import Idealize.ShloMosaic.Lib.StableHlo.Run
import Idealize.ShloMosaic.Lib.Pipeline.Value

set_option maxRecDepth 16384

noncomputable section

namespace Cert.KernelIdeal.QkvArray

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

/-! ## The inputs as the region finds them -/

/-- W when the region is entered: the host's narrowing of the argument, the same extended reals. -/
theorem entry_w (c : Dev nD) :
    (V m c main_v0 : S3072x1024.Idx → EReal) = (m ((c : Thread nD τ).loc main_arg1) : S3072x1024.Idx → EReal) := by
  dsimp only [Gen.V, Gen.hostOps0]; after_results; rfl

/-- b when the region is entered: the argument viewed as a [1, 3072] row. -/
theorem entry_b (c : Dev nD) :
    (V m c main_v1 : S1x3072.Idx → EReal)
      = shapeCast S1x3072 (m ((c : Thread nD τ).loc main_arg2) : S3072.Idx → EReal) shapeCasts_S3072_S1x3072 := by
  dsimp only [Gen.V, Gen.hostOps0]; after_results; rfl

/-- An entry of the x tile at point `t` is the argument's entry under it. -/
theorem read_x (c : Dev nD) (t : Fin cfg0.N) (y : S1x512x1024.Idx) :
    iblk m c 0 t y = m ((c : Thread nD τ).loc main_arg0) (((cfg0.win 0).blk t).view.emb y) := by
  show V m c main_arg0 (((cfg0.win 0).blk t).view.emb y) = _
  rw [V_main_arg0]

/-- An entry of the staged W is the argument's entry under it. -/
theorem read_w (c : Dev nD) (t : Fin cfg0.N) (y : S3072x1024.Idx) :
    iblk m c 1 t y = (m ((c : Thread nD τ).loc main_arg1) : S3072x1024.Idx → EReal) (((cfg0.win 1).blk t).view.emb y) := by
  show (V m c main_v0 : S3072x1024.Idx → EReal) (((cfg0.win 1).blk t).view.emb y) = _
  rw [entry_w]

/-- An entry of the staged bias row is the reshaped argument's entry under it. -/
theorem read_b (c : Dev nD) (t : Fin cfg0.N) (y : S1x3072.Idx) :
    iblk m c 2 t y = shapeCast S1x3072 (m ((c : Thread nD τ).loc main_arg2) : S3072.Idx → EReal) shapeCasts_S3072_S1x3072
      (((cfg0.win 2).blk t).view.emb y) := by
  show (V m c main_v1 : S1x3072.Idx → EReal) (((cfg0.win 2).blk t).view.emb y) = _
  rw [entry_b]

/-! ## Output window 3: the q part -/

/-- The index maps over the 4 x 4 grid, decided: the x tile moves with the output tile (batch with batch, sequence tile with
    sequence tile), W and b never move, and the output tile's head and lane block indices are zero. -/
theorem idx_facts3 : ∀ t : Fin cfg0.N,
    win0_0.index t (0 : Fin 3) = win0_3.index t (0 : Fin 4) ∧ win0_0.index t (1 : Fin 3) = win0_3.index t (2 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) ≤ 3 ∧ win0_3.index t (1 : Fin 4) = 0
    ∧ win0_3.index t (2 : Fin 4) ≤ 3 ∧ win0_3.index t (3 : Fin 4) = 0 :=
  (by decide +kernel : ∀ t : Fin grid0.N, _)

/-- Every (batch, sequence tile) pair is some point's block. -/
theorem idx_onto3 : ∀ (q0 : Fin 4) (q2 : Fin 4), ∃ t : Fin cfg0.N, win0_3.index t = ![q0.val, 0, q2.val, 0] :=
  (by decide +kernel : ∀ (q0 : Fin 4) (q2 : Fin 4), ∃ t : Fin grid0.N, win0_3.index t = ![q0.val, 0, q2.val, 0])

/-- What point `t` writes back is block `t` of the projection of the argument arrays. -/
theorem flushed3_eq (c : Dev nD) (t : Fin cfg0.N) :
    (dats m 0 c).flushed 3 t = ((cfg0.win 3).blk t).view.read (Elt Ideal)
      (Cert.Qkv.proj 0 (by norm_num) (m ((c : Thread nD τ).loc main_arg0)) (m ((c : Thread nD τ).loc main_arg1)) (m ((c : Thread nD τ).loc main_arg2))) := by
  rw [Value.flushed3, QkvBlock.out0_3_eq]
  obtain ⟨e0, e1, e2, e3, e4, e5, e6, b0, e7, b2, e8⟩ := idx_facts3 t
  funext j
  have hj0 : (j 0).val < 1 := (j 0).isLt
  show Cert.Qkv.projBlk 0 _ (iblk m c 0 t) (iblk m c 1 t) (iblk m c 2 t) j
    = Cert.Qkv.proj 0 _ (m ((c : Thread nD τ).loc main_arg0)) (m ((c : Thread nD τ).loc main_arg1)) (m ((c : Thread nD τ).loc main_arg2)) (((cfg0.win 3).blk t).view.emb j)
  refine Cert.Qkv.projBlk_eq_proj 0 _ _ _ _ (iblk m c 0 t) (iblk m c 1 t) (iblk m c 2 t) j
    (((cfg0.win 3).blk t).view.emb j) ?_ ?_ ?_ ?_ ?_
  · intro k
    rw [read_x]
    refine congrArg _ (funext fun a => Fin.ext ?_)
    match a with
    | ⟨0, _⟩ => show win0_0.index t (0 : Fin 3) * 1 + 1 * (0 : Nat) = win0_3.index t (0 : Fin 4) * 1 + 1 * (j 0).val; omega
    | ⟨1, _⟩ => show win0_0.index t (1 : Fin 3) * 512 + 1 * (j 2).val = win0_3.index t (2 : Fin 4) * 512 + 1 * (j 2).val; omega
    | ⟨2, _⟩ => show win0_0.index t (2 : Fin 3) * 1024 + 1 * k.val = k.val; omega
  · intro row k
    rw [read_w]
    refine congrArg _ (funext fun a => Fin.ext ?_)
    match a with
    | ⟨0, _⟩ => show win0_1.index t (0 : Fin 2) * 3072 + 1 * row.val = row.val; omega
    | ⟨1, _⟩ => show win0_1.index t (1 : Fin 2) * 1024 + 1 * k.val = k.val; omega
  · intro row
    rw [read_b]
    refine shapeCast_apply _ _ _ (ix1 row) ?_
    rw [Shape.rowMajor_val_one, Shape.rowMajor_val_two]
    show row.val = (win0_2.index t (0 : Fin 2) * 1 + 1 * (0 : Nat)) * 3072 + (win0_2.index t (1 : Fin 2) * 3072 + 1 * row.val)
    omega
  · show win0_3.index t (1 : Fin 4) * 16 + 1 * (j 1).val = (j 1).val; omega
  · show win0_3.index t (3 : Fin 4) * 64 + 1 * (j 3).val = (j 3).val; omega

/-- An entry of the array is in point `t`'s block iff each coordinate is in the block's range on its axis. -/
theorem mem_blk3 (t : Fin cfg0.N) (i : S4x16x2048x64.Idx) :
    i ∈ ((cfg0.win 3).blk t).view.set ↔ ∀ a : Fin 4, win0_3.index t a * S1x16x512x64.size a ≤ (i a).val
      ∧ (i a).val < win0_3.index t a * S1x16x512x64.size a + S1x16x512x64.size a := by
  show i ∈ ((View.whole main_v2_0).slice (win0_3.rect t)).set ↔ _
  rw [View.set_slice_whole, Rect.mem_set_unit]
  exact Iff.rfl

/-- The sixteen blocks cover the array: entry (n, h, s, e) lies in the block of batch n and sequence tile s / 512. -/
theorem cover3 (i : S4x16x2048x64.Idx) :
    ∃ t : Fin cfg0.N, (cfg0.win 3).flush t = true ∧ i ∈ ((cfg0.win 3).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto3 ⟨(i 0).val, hi0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- The array after the run is the q part of the projection of the argument arrays. -/
theorem final3 (c : Dev nD) : (dats m 0 c).arrAt 3 cfg0.N
    = Cert.Qkv.proj 0 (by norm_num) (m ((c : Thread nD τ).loc main_arg0)) (m ((c : Thread nD τ).loc main_arg1)) (m ((c : Thread nD τ).loc main_arg2)) :=
  (dats m 0 c).arrAt_eq_of_cover 3 _ (fun t _ => flushed3_eq m c t) cover3

/-! ## Output window 4: the k part -/

/-- The index maps over the 4 x 4 grid, decided: the x tile moves with the output tile (batch with batch, sequence tile with
    sequence tile), W and b never move, and the output tile's head and lane block indices are zero. -/
theorem idx_facts4 : ∀ t : Fin cfg0.N,
    win0_0.index t (0 : Fin 3) = win0_4.index t (0 : Fin 4) ∧ win0_0.index t (1 : Fin 3) = win0_4.index t (2 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_4.index t (0 : Fin 4) ≤ 3 ∧ win0_4.index t (1 : Fin 4) = 0
    ∧ win0_4.index t (2 : Fin 4) ≤ 3 ∧ win0_4.index t (3 : Fin 4) = 0 :=
  (by decide +kernel : ∀ t : Fin grid0.N, _)

/-- Every (batch, sequence tile) pair is some point's block. -/
theorem idx_onto4 : ∀ (q0 : Fin 4) (q2 : Fin 4), ∃ t : Fin cfg0.N, win0_4.index t = ![q0.val, 0, q2.val, 0] :=
  (by decide +kernel : ∀ (q0 : Fin 4) (q2 : Fin 4), ∃ t : Fin grid0.N, win0_4.index t = ![q0.val, 0, q2.val, 0])

/-- What point `t` writes back is block `t` of the projection of the argument arrays. -/
theorem flushed4_eq (c : Dev nD) (t : Fin cfg0.N) :
    (dats m 0 c).flushed 4 t = ((cfg0.win 4).blk t).view.read (Elt Ideal)
      (Cert.Qkv.proj 64 (by norm_num) (m ((c : Thread nD τ).loc main_arg0)) (m ((c : Thread nD τ).loc main_arg1)) (m ((c : Thread nD τ).loc main_arg2))) := by
  rw [Value.flushed4, QkvBlock.out0_4_eq]
  obtain ⟨e0, e1, e2, e3, e4, e5, e6, b0, e7, b2, e8⟩ := idx_facts4 t
  funext j
  have hj0 : (j 0).val < 1 := (j 0).isLt
  show Cert.Qkv.projBlk 64 _ (iblk m c 0 t) (iblk m c 1 t) (iblk m c 2 t) j
    = Cert.Qkv.proj 64 _ (m ((c : Thread nD τ).loc main_arg0)) (m ((c : Thread nD τ).loc main_arg1)) (m ((c : Thread nD τ).loc main_arg2)) (((cfg0.win 4).blk t).view.emb j)
  refine Cert.Qkv.projBlk_eq_proj 64 _ _ _ _ (iblk m c 0 t) (iblk m c 1 t) (iblk m c 2 t) j
    (((cfg0.win 4).blk t).view.emb j) ?_ ?_ ?_ ?_ ?_
  · intro k
    rw [read_x]
    refine congrArg _ (funext fun a => Fin.ext ?_)
    match a with
    | ⟨0, _⟩ => show win0_0.index t (0 : Fin 3) * 1 + 1 * (0 : Nat) = win0_4.index t (0 : Fin 4) * 1 + 1 * (j 0).val; omega
    | ⟨1, _⟩ => show win0_0.index t (1 : Fin 3) * 512 + 1 * (j 2).val = win0_4.index t (2 : Fin 4) * 512 + 1 * (j 2).val; omega
    | ⟨2, _⟩ => show win0_0.index t (2 : Fin 3) * 1024 + 1 * k.val = k.val; omega
  · intro row k
    rw [read_w]
    refine congrArg _ (funext fun a => Fin.ext ?_)
    match a with
    | ⟨0, _⟩ => show win0_1.index t (0 : Fin 2) * 3072 + 1 * row.val = row.val; omega
    | ⟨1, _⟩ => show win0_1.index t (1 : Fin 2) * 1024 + 1 * k.val = k.val; omega
  · intro row
    rw [read_b]
    refine shapeCast_apply _ _ _ (ix1 row) ?_
    rw [Shape.rowMajor_val_one, Shape.rowMajor_val_two]
    show row.val = (win0_2.index t (0 : Fin 2) * 1 + 1 * (0 : Nat)) * 3072 + (win0_2.index t (1 : Fin 2) * 3072 + 1 * row.val)
    omega
  · show win0_4.index t (1 : Fin 4) * 16 + 1 * (j 1).val = (j 1).val; omega
  · show win0_4.index t (3 : Fin 4) * 64 + 1 * (j 3).val = (j 3).val; omega

/-- An entry of the array is in point `t`'s block iff each coordinate is in the block's range on its axis. -/
theorem mem_blk4 (t : Fin cfg0.N) (i : S4x16x2048x64.Idx) :
    i ∈ ((cfg0.win 4).blk t).view.set ↔ ∀ a : Fin 4, win0_4.index t a * S1x16x512x64.size a ≤ (i a).val
      ∧ (i a).val < win0_4.index t a * S1x16x512x64.size a + S1x16x512x64.size a := by
  show i ∈ ((View.whole main_v2_1).slice (win0_4.rect t)).set ↔ _
  rw [View.set_slice_whole, Rect.mem_set_unit]
  exact Iff.rfl

/-- The sixteen blocks cover the array: entry (n, h, s, e) lies in the block of batch n and sequence tile s / 512. -/
theorem cover4 (i : S4x16x2048x64.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto4 ⟨(i 0).val, hi0⟩ ⟨(i 2).val / 512, by omega⟩
  have q0 : win0_4.index t (0 : Fin 4) = (i 0).val := congrFun ht 0
  have q1 : win0_4.index t (1 : Fin 4) = 0 := congrFun ht 1
  have q2 : win0_4.index t (2 : Fin 4) = (i 2).val / 512 := congrFun ht 2
  have q3 : win0_4.index t (3 : Fin 4) = 0 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- The array after the run is the k part of the projection of the argument arrays. -/
theorem final4 (c : Dev nD) : (dats m 0 c).arrAt 4 cfg0.N
    = Cert.Qkv.proj 64 (by norm_num) (m ((c : Thread nD τ).loc main_arg0)) (m ((c : Thread nD τ).loc main_arg1)) (m ((c : Thread nD τ).loc main_arg2)) :=
  (dats m 0 c).arrAt_eq_of_cover 4 _ (fun t _ => flushed4_eq m c t) cover4

/-! ## Output window 5: the v part -/

/-- The index maps over the 4 x 4 grid, decided: the x tile moves with the output tile (batch with batch, sequence tile with
    sequence tile), W and b never move, and the output tile's head and lane block indices are zero. -/
theorem idx_facts5 : ∀ t : Fin cfg0.N,
    win0_0.index t (0 : Fin 3) = win0_5.index t (0 : Fin 4) ∧ win0_0.index t (1 : Fin 3) = win0_5.index t (2 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_5.index t (0 : Fin 4) ≤ 3 ∧ win0_5.index t (1 : Fin 4) = 0
    ∧ win0_5.index t (2 : Fin 4) ≤ 3 ∧ win0_5.index t (3 : Fin 4) = 0 :=
  (by decide +kernel : ∀ t : Fin grid0.N, _)

/-- Every (batch, sequence tile) pair is some point's block. -/
theorem idx_onto5 : ∀ (q0 : Fin 4) (q2 : Fin 4), ∃ t : Fin cfg0.N, win0_5.index t = ![q0.val, 0, q2.val, 0] :=
  (by decide +kernel : ∀ (q0 : Fin 4) (q2 : Fin 4), ∃ t : Fin grid0.N, win0_5.index t = ![q0.val, 0, q2.val, 0])

/-- What point `t` writes back is block `t` of the projection of the argument arrays. -/
theorem flushed5_eq (c : Dev nD) (t : Fin cfg0.N) :
    (dats m 0 c).flushed 5 t = ((cfg0.win 5).blk t).view.read (Elt Ideal)
      (Cert.Qkv.proj 128 (by norm_num) (m ((c : Thread nD τ).loc main_arg0)) (m ((c : Thread nD τ).loc main_arg1)) (m ((c : Thread nD τ).loc main_arg2))) := by
  rw [Value.flushed5, QkvBlock.out0_5_eq]
  obtain ⟨e0, e1, e2, e3, e4, e5, e6, b0, e7, b2, e8⟩ := idx_facts5 t
  funext j
  have hj0 : (j 0).val < 1 := (j 0).isLt
  show Cert.Qkv.projBlk 128 _ (iblk m c 0 t) (iblk m c 1 t) (iblk m c 2 t) j
    = Cert.Qkv.proj 128 _ (m ((c : Thread nD τ).loc main_arg0)) (m ((c : Thread nD τ).loc main_arg1)) (m ((c : Thread nD τ).loc main_arg2)) (((cfg0.win 5).blk t).view.emb j)
  refine Cert.Qkv.projBlk_eq_proj 128 _ _ _ _ (iblk m c 0 t) (iblk m c 1 t) (iblk m c 2 t) j
    (((cfg0.win 5).blk t).view.emb j) ?_ ?_ ?_ ?_ ?_
  · intro k
    rw [read_x]
    refine congrArg _ (funext fun a => Fin.ext ?_)
    match a with
    | ⟨0, _⟩ => show win0_0.index t (0 : Fin 3) * 1 + 1 * (0 : Nat) = win0_5.index t (0 : Fin 4) * 1 + 1 * (j 0).val; omega
    | ⟨1, _⟩ => show win0_0.index t (1 : Fin 3) * 512 + 1 * (j 2).val = win0_5.index t (2 : Fin 4) * 512 + 1 * (j 2).val; omega
    | ⟨2, _⟩ => show win0_0.index t (2 : Fin 3) * 1024 + 1 * k.val = k.val; omega
  · intro row k
    rw [read_w]
    refine congrArg _ (funext fun a => Fin.ext ?_)
    match a with
    | ⟨0, _⟩ => show win0_1.index t (0 : Fin 2) * 3072 + 1 * row.val = row.val; omega
    | ⟨1, _⟩ => show win0_1.index t (1 : Fin 2) * 1024 + 1 * k.val = k.val; omega
  · intro row
    rw [read_b]
    refine shapeCast_apply _ _ _ (ix1 row) ?_
    rw [Shape.rowMajor_val_one, Shape.rowMajor_val_two]
    show row.val = (win0_2.index t (0 : Fin 2) * 1 + 1 * (0 : Nat)) * 3072 + (win0_2.index t (1 : Fin 2) * 3072 + 1 * row.val)
    omega
  · show win0_5.index t (1 : Fin 4) * 16 + 1 * (j 1).val = (j 1).val; omega
  · show win0_5.index t (3 : Fin 4) * 64 + 1 * (j 3).val = (j 3).val; omega

/-- An entry of the array is in point `t`'s block iff each coordinate is in the block's range on its axis. -/
theorem mem_blk5 (t : Fin cfg0.N) (i : S4x16x2048x64.Idx) :
    i ∈ ((cfg0.win 5).blk t).view.set ↔ ∀ a : Fin 4, win0_5.index t a * S1x16x512x64.size a ≤ (i a).val
      ∧ (i a).val < win0_5.index t a * S1x16x512x64.size a + S1x16x512x64.size a := by
  show i ∈ ((View.whole main_v2_2).slice (win0_5.rect t)).set ↔ _
  rw [View.set_slice_whole, Rect.mem_set_unit]
  exact Iff.rfl

/-- The sixteen blocks cover the array: entry (n, h, s, e) lies in the block of batch n and sequence tile s / 512. -/
theorem cover5 (i : S4x16x2048x64.Idx) :
    ∃ t : Fin cfg0.N, (cfg0.win 5).flush t = true ∧ i ∈ ((cfg0.win 5).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto5 ⟨(i 0).val, hi0⟩ ⟨(i 2).val / 512, by omega⟩
  have q0 : win0_5.index t (0 : Fin 4) = (i 0).val := congrFun ht 0
  have q1 : win0_5.index t (1 : Fin 4) = 0 := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 512 ≤ (i 2).val ∧ (i 2).val < win0_5.index t (2 : Fin 4) * 512 + 512; omega
  | ⟨3, _⟩ => show win0_5.index t (3 : Fin 4) * 64 ≤ (i 3).val ∧ (i 3).val < win0_5.index t (3 : Fin 4) * 64 + 64; omega

/-- The array after the run is the v part of the projection of the argument arrays. -/
theorem final5 (c : Dev nD) : (dats m 0 c).arrAt 5 cfg0.N
    = Cert.Qkv.proj 128 (by norm_num) (m ((c : Thread nD τ).loc main_arg0)) (m ((c : Thread nD τ).loc main_arg1)) (m ((c : Thread nD τ).loc main_arg2)) :=
  (dats m 0 c).arrAt_eq_of_cover 5 _ (fun t _ => flushed5_eq m c t) cover5

/-! ## The run -/

/-- Every weakly fair execution of the kernel's program ends with q, k, v holding the three parts of the projection of the
    argument arrays, and the arguments unchanged. -/
theorem run : θ_run defs (onTc (τ := τ) (main (F := Ideal))) ⟨m, fun _ => 0, ρ⟩ fun r => ∀ c : Dev nD,
      r.2.mem ((c : Thread nD τ).loc main_v2_0) = Cert.Qkv.proj 0 (by norm_num) (m ((c : Thread nD τ).loc main_arg0)) (m ((c : Thread nD τ).loc main_arg1)) (m ((c : Thread nD τ).loc main_arg2))
      ∧ r.2.mem ((c : Thread nD τ).loc main_v2_1) = Cert.Qkv.proj 64 (by norm_num) (m ((c : Thread nD τ).loc main_arg0)) (m ((c : Thread nD τ).loc main_arg1)) (m ((c : Thread nD τ).loc main_arg2))
      ∧ r.2.mem ((c : Thread nD τ).loc main_v2_2) = Cert.Qkv.proj 128 (by norm_num) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c),
      (h c).2.2.1.trans (final5 m c), (h c).2.2.2⟩)
    (Value.run_blocks m ρ)

end Cert.KernelIdeal.QkvArray

end
-- ==== Proof.QkvReference.lean ====
/-
  The reference computes the projection.

  The reference forms y = x . W^T + b as a [4, 2048, 3072] array, views its last axis as 16 heads of 192, moves the head axis
  in front of the sequence axis and cuts the 192 into three 64s.  Read at an entry (n, h, s, e) of a part at offset off, that
  chain lands on y[n, s, 192 * h + off + e]: the flat position ((n * 2048 + s) * 16 + h) * 192 + (off + e) of the
  [4, 2048, 16, 192] view splits back into n, s and 192 * h + off + e.
-/
import proofs.«114815_j19722489823947_2_alg».proof.Proof.Gen.ReferenceIdeal.Read
import proofs.«114815_j19722489823947_2_alg».proof.Proof.QkvSpec

noncomputable section

namespace Cert.ReferenceIdeal.QkvRef

open Cert.ReferenceIdeal Cert.ReferenceIdeal.Gen Cert.ReferenceIdeal.Read Idealize.ShloMosaic Idealize.ShloMosaic.ValueIdx
  Idealize.ShloMosaic.TcCoe

/-- A flat position of the [4, 2048, 16, 192] view, split along [4, 2048, 3072]. -/
theorem flat_parts (a b c d : Nat) (ha : a < 4) (hb : b < 2048) (hc : c < 16) (hd : d < 192) :
    (((a * 2048 + b) * 16 + c) * 192 + d) / 6291456 = a
      ∧ (((a * 2048 + b) * 16 + c) * 192 + d) / 3072 % 2048 = b
      ∧ (((a * 2048 + b) * 16 + c) * 192 + d) % 3072 = 192 * c + d := by
  omega

/-- The reference's q is the projection's part at offset 0. -/
theorem ref_q (x0 : (⟨S4x2048x1024, .f32⟩ : BufTy).Contents (Elt Ideal)) (x1 : (⟨S3072x1024, .f32⟩ : BufTy).Contents (Elt Ideal))
    (x2 : (⟨S3072, .f32⟩ : BufTy).Contents (Elt Ideal)) :
    val_main_v6 (F := Ideal) x0 x1 x2 = Cert.Qkv.proj 0 (by norm_num) x0 x1 x2 := by
  funext i
  have h0 : (i 0).val < 4 := (i 0).isLt
  have h1 : (i 1).val < 16 := (i 1).isLt
  have h2 : (i 2).val < 2048 := (i 2).isLt
  have h3 : (i 3).val < 64 := (i 3).isLt
  obtain ⟨f0, f1, f2⟩ := flat_parts (i 0).val (i 2).val (i 1).val ((i 3).val) h0 h2 h1 (by omega)
  rw [val_main_v6_apply, val_main_v5_apply, val_main_v4_apply, val_main_v3_apply, val_main_v0_apply, val_main_v2_apply,
    val_main_v1_apply]
  unfold Cert.Qkv.proj
  refine congrArg₂ (· + ·) (Finset.sum_congr rfl fun k _ => congrArg₂ (· * ·) (congrArg x0 ?_) (congrArg x1 ?_)) (congrArg x2 ?_)
  · funext a
    match a with
    | ⟨0, _⟩ => exact Fin.ext (by show ((((i 0).val * 2048 + (i 2).val) * 16 + (i 1).val) * 192 + ((i 3).val)) / 6291456 = (i 0).val; exact f0)
    | ⟨1, _⟩ => exact Fin.ext (by show ((((i 0).val * 2048 + (i 2).val) * 16 + (i 1).val) * 192 + ((i 3).val)) / 3072 % 2048 = (i 2).val; exact f1)
    | ⟨2, _⟩ => rfl
  · funext a
    match a with
    | ⟨0, _⟩ => exact Fin.ext (by show ((((i 0).val * 2048 + (i 2).val) * 16 + (i 1).val) * 192 + ((i 3).val)) % 3072 = 192 * (i 1).val + 0 + (i 3).val; omega)
    | ⟨1, _⟩ => rfl
  · funext a
    match a with
    | ⟨0, _⟩ => exact Fin.ext (by show ((((i 0).val * 2048 + (i 2).val) * 16 + (i 1).val) * 192 + ((i 3).val)) % 3072 = 192 * (i 1).val + 0 + (i 3).val; omega)

/-- The reference's k is the projection's part at offset 64. -/
theorem ref_k (x0 : (⟨S4x2048x1024, .f32⟩ : BufTy).Contents (Elt Ideal)) (x1 : (⟨S3072x1024, .f32⟩ : BufTy).Contents (Elt Ideal))
    (x2 : (⟨S3072, .f32⟩ : BufTy).Contents (Elt Ideal)) :
    val_main_v7 (F := Ideal) x0 x1 x2 = Cert.Qkv.proj 64 (by norm_num) x0 x1 x2 := by
  funext i
  have h0 : (i 0).val < 4 := (i 0).isLt
  have h1 : (i 1).val < 16 := (i 1).isLt
  have h2 : (i 2).val < 2048 := (i 2).isLt
  have h3 : (i 3).val < 64 := (i 3).isLt
  obtain ⟨f0, f1, f2⟩ := flat_parts (i 0).val (i 2).val (i 1).val (64 + (i 3).val) h0 h2 h1 (by omega)
  rw [val_main_v7_apply, val_main_v5_apply, val_main_v4_apply, val_main_v3_apply, val_main_v0_apply, val_main_v2_apply,
    val_main_v1_apply]
  unfold Cert.Qkv.proj
  refine congrArg₂ (· + ·) (Finset.sum_congr rfl fun k _ => congrArg₂ (· * ·) (congrArg x0 ?_) (congrArg x1 ?_)) (congrArg x2 ?_)
  · funext a
    match a with
    | ⟨0, _⟩ => exact Fin.ext (by show ((((i 0).val * 2048 + (i 2).val) * 16 + (i 1).val) * 192 + (64 + (i 3).val)) / 6291456 = (i 0).val; exact f0)
    | ⟨1, _⟩ => exact Fin.ext (by show ((((i 0).val * 2048 + (i 2).val) * 16 + (i 1).val) * 192 + (64 + (i 3).val)) / 3072 % 2048 = (i 2).val; exact f1)
    | ⟨2, _⟩ => rfl
  · funext a
    match a with
    | ⟨0, _⟩ => exact Fin.ext (by show ((((i 0).val * 2048 + (i 2).val) * 16 + (i 1).val) * 192 + (64 + (i 3).val)) % 3072 = 192 * (i 1).val + 64 + (i 3).val; omega)
    | ⟨1, _⟩ => rfl
  · funext a
    match a with
    | ⟨0, _⟩ => exact Fin.ext (by show ((((i 0).val * 2048 + (i 2).val) * 16 + (i 1).val) * 192 + (64 + (i 3).val)) % 3072 = 192 * (i 1).val + 64 + (i 3).val; omega)

/-- The reference's v is the projection's part at offset 128. -/
theorem ref_v (x0 : (⟨S4x2048x1024, .f32⟩ : BufTy).Contents (Elt Ideal)) (x1 : (⟨S3072x1024, .f32⟩ : BufTy).Contents (Elt Ideal))
    (x2 : (⟨S3072, .f32⟩ : BufTy).Contents (Elt Ideal)) :
    val_main_v8 (F := Ideal) x0 x1 x2 = Cert.Qkv.proj 128 (by norm_num) x0 x1 x2 := by
  funext i
  have h0 : (i 0).val < 4 := (i 0).isLt
  have h1 : (i 1).val < 16 := (i 1).isLt
  have h2 : (i 2).val < 2048 := (i 2).isLt
  have h3 : (i 3).val < 64 := (i 3).isLt
  obtain ⟨f0, f1, f2⟩ := flat_parts (i 0).val (i 2).val (i 1).val (128 + (i 3).val) h0 h2 h1 (by omega)
  rw [val_main_v8_apply, val_main_v5_apply, val_main_v4_apply, val_main_v3_apply, val_main_v0_apply, val_main_v2_apply,
    val_main_v1_apply]
  unfold Cert.Qkv.proj
  refine congrArg₂ (· + ·) (Finset.sum_congr rfl fun k _ => congrArg₂ (· * ·) (congrArg x0 ?_) (congrArg x1 ?_)) (congrArg x2 ?_)
  · funext a
    match a with
    | ⟨0, _⟩ => exact Fin.ext (by show ((((i 0).val * 2048 + (i 2).val) * 16 + (i 1).val) * 192 + (128 + (i 3).val)) / 6291456 = (i 0).val; exact f0)
    | ⟨1, _⟩ => exact Fin.ext (by show ((((i 0).val * 2048 + (i 2).val) * 16 + (i 1).val) * 192 + (128 + (i 3).val)) / 3072 % 2048 = (i 2).val; exact f1)
    | ⟨2, _⟩ => rfl
  · funext a
    match a with
    | ⟨0, _⟩ => exact Fin.ext (by show ((((i 0).val * 2048 + (i 2).val) * 16 + (i 1).val) * 192 + (128 + (i 3).val)) % 3072 = 192 * (i 1).val + 128 + (i 3).val; omega)
    | ⟨1, _⟩ => rfl
  · funext a
    match a with
    | ⟨0, _⟩ => exact Fin.ext (by show ((((i 0).val * 2048 + (i 2).val) * 16 + (i 1).val) * 192 + (128 + (i 3).val)) % 3072 = 192 * (i 1).val + 128 + (i 3).val; omega)

end Cert.ReferenceIdeal.QkvRef

end
-- ==== Proof.lean ====
/-
  The fused q/k/v projection: the tiled kernel against the plain formula.

  Arguments x : [4, 2048, 1024], W : [3072, 1024], b : [3072]; results q, k, v : [4, 16, 2048, 64].  Both programs compute
  y[n, s, o] = (sum over d of x[n, s, d] * W[o, d]) + b[o]  and hand out, for head h and lane e, the rows
  o = 192 * h + e (q), 192 * h + 64 + e (k), 192 * h + 128 + e (v).

  The reference forms y whole, views its last axis as 16 x 192, moves the head axis forward and cuts the 192 into three.  The
  kernel walks a 4 x 4 grid of (batch, 512-row sequence tile); at each point it multiplies the x tile by four 768-row groups of W
  (four heads each), adds the group's bias entries, and stores twelve 64-lane column slices per group into the q, k, v tiles,
  one slab per head.  On the extended reals the narrowing of x and W to bf16 is the identity and a product into a zero
  accumulator is the plain sum over d, so a stored slab is exactly the formula on the slab's entries (QkvPiece); the sixteen
  slabs tile an output tile (QkvBlock); the sixteen tiles tile an output array (QkvArray); and the reference's chain of layout
  operations reads the same entry of y (QkvReference).  The sum and the one addition appear in the same order on both sides, so
  no algebraic law is needed and finiteness of the inputs is never used.

  The three frames are the generated ones (the reference's is its generated run with the results dropped); the idealization
  rewrote nothing, so the kernel-to-idealized-kernel conjunct is trivial.
-/
import proofs.«114815_j19722489823947_2_alg».proof.Defs
import proofs.«114815_j19722489823947_2_alg».proof.Proof.Gen.Kernel
import proofs.«114815_j19722489823947_2_alg».proof.Proof.Gen.Kernel.Skeleton
import proofs.«114815_j19722489823947_2_alg».proof.Proof.Gen.Kernel.Launch
import proofs.«114815_j19722489823947_2_alg».proof.Proof.Gen.Kernel.Points
import proofs.«114815_j19722489823947_2_alg».proof.Proof.Gen.Kernel.Frame
import proofs.«114815_j19722489823947_2_alg».proof.Proof.Gen.KernelIdeal
import proofs.«114815_j19722489823947_2_alg».proof.Proof.Gen.KernelIdeal.Skeleton
import proofs.«114815_j19722489823947_2_alg».proof.Proof.Gen.KernelIdeal.Launch
import proofs.«114815_j19722489823947_2_alg».proof.Proof.Gen.KernelIdeal.Points
import proofs.«114815_j19722489823947_2_alg».proof.Proof.Gen.KernelIdeal.Frame
import proofs.«114815_j19722489823947_2_alg».proof.Proof.Gen.ReferenceIdeal
import proofs.«114815_j19722489823947_2_alg».proof.Proof.Gen.Pre_finite_inputs
import proofs.«114815_j19722489823947_2_alg».proof.Proof.Gen.KernelIdeal.Value
import proofs.«114815_j19722489823947_2_alg».proof.Proof.Gen.ReferenceIdeal.Run
import proofs.«114815_j19722489823947_2_alg».proof.Proof.Gen.ReferenceIdeal.Read
import proofs.«114815_j19722489823947_2_alg».proof.Proof.QkvArray
import proofs.«114815_j19722489823947_2_alg».proof.Proof.QkvReference
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- From memories that agree on x, W and b, the kernel's q, k, v and the reference's are the same three parts of the
    projection. -/
theorem algebraic : Cert.algebraic_KernelIdeal_ReferenceIdeal := by
  intro m ρ m' ρ' _ hagree
  refine ⟨_, _, _, Cert.KernelIdeal.QkvArray.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v6_eq, Cert.ReferenceIdeal.QkvRef.ref_q, (hagree c).1, (hagree c).2.1,
      (hagree c).2.2]
  · rw [(h c).2.1, Cert.ReferenceIdeal.Read.val_main_v7_eq, Cert.ReferenceIdeal.QkvRef.ref_k, (hagree c).1, (hagree c).2.1,
      (hagree c).2.2]
  · rw [(h c).2.2.1, Cert.ReferenceIdeal.Read.val_main_v8_eq, Cert.ReferenceIdeal.QkvRef.ref_v, (hagree c).1, (hagree c).2.1,
      (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
